-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x64 : Shape := ⟨3, ![128, 512, 64]⟩
abbrev S8x16x512x512 : Shape := ⟨4, ![8, 16, 512, 512]⟩
abbrev S_ : Shape := ⟨0, ![]⟩

class Facts : Prop where
  bcast_S_S128x512x64 : S_.BroadcastsInDim S128x512x64 (![] : Fin 0 → Fin S128x512x64.rank)
  reducesTo_S128x512x64_S_d0_1_2 : S128x512x64.ReducesTo [0, 1, 2] S_
  h_S_ : 0 < S_.numel
  bcast_S_S8x16x512x512 : S_.BroadcastsInDim S8x16x512x512 (![] : Fin 0 → Fin S8x16x512x512.rank)
  reducesTo_S8x16x512x512_S_d0_1_2_3 : S8x16x512x512.ReducesTo [0, 1, 2, 3] S_

variable [Facts]

def fn_part1 {F : FTy → Type} [FloatOps F] (main_v13 : IVec S_ 1) (main_v16 : IVec S8x16x512x512 1) : IVec S_ 1 :=
  let main_c_5 : IVec S_ 1 := constantI S_ 1 1#1
  let main_v17 : IVec S_ 1 := (fun x v => Host.reduce IntOp.andi x v reducesTo_S8x16x512x512_S_d0_1_2_3 h_S_) main_v16 main_c_5
  let main_v18 : IVec S_ 1 := andi main_v13 main_v17
  main_v18

def fn {F : FTy → Type} [FloatOps F] (main_arg0 : FVec F S128x512x64 .f32) (main_arg1 : FVec F S128x512x64 .f32) (main_arg2 : FVec F S128x512x64 .f32) (main_arg3 : FVec F S8x16x512x512 .f32) (main_arg4 : IVec S8x16x512x512 1) : IVec S_ 1 :=
  let main_v0 : FVec F S128x512x64 .f32 := Host.absf main_arg0
  let main_cst : FVec F S_ .f32 := constant S_ .f32 0x7F800000#32
  let main_v1 : FVec F S128x512x64 .f32 := broadcastInDim S128x512x64 ![] bcast_S_S128x512x64 main_cst
  let main_v2 : IVec S128x512x64 1 := cmpf .olt main_v0 main_v1
  let main_c : IVec S_ 1 := constantI S_ 1 1#1
  let main_v3 : IVec S_ 1 := (fun x v => Host.reduce IntOp.andi x v reducesTo_S128x512x64_S_d0_1_2 h_S_) main_v2 main_c
  let main_v4 : FVec F S128x512x64 .f32 := Host.absf main_arg1
  let main_cst_0 : FVec F S_ .f32 := constant S_ .f32 0x7F800000#32
  let main_v5 : FVec F S128x512x64 .f32 := broadcastInDim S128x512x64 ![] bcast_S_S128x512x64 main_cst_0
  let main_v6 : IVec S128x512x64 1 := cmpf .olt main_v4 main_v5
  let main_c_1 : IVec S_ 1 := constantI S_ 1 1#1
  let main_v7 : IVec S_ 1 := (fun x v => Host.reduce IntOp.andi x v reducesTo_S128x512x64_S_d0_1_2 h_S_) main_v6 main_c_1
  let main_v8 : IVec S_ 1 := andi main_v3 main_v7
  let main_v9 : FVec F S128x512x64 .f32 := Host.absf main_arg2
  let main_cst_2 : FVec F S_ .f32 := constant S_ .f32 0x7F800000#32
  let main_v10 : FVec F S128x512x64 .f32 := broadcastInDim S128x512x64 ![] bcast_S_S128x512x64 main_cst_2
  let main_v11 : IVec S128x512x64 1 := cmpf .olt main_v9 main_v10
  let main_c_3 : IVec S_ 1 := constantI S_ 1 1#1
  let main_v12 : IVec S_ 1 := (fun x v => Host.reduce IntOp.andi x v reducesTo_S128x512x64_S_d0_1_2 h_S_) main_v11 main_c_3
  let main_v13 : IVec S_ 1 := andi main_v8 main_v12
  let main_v14 : FVec F S8x16x512x512 .f32 := Host.absf main_arg3
  let main_cst_4 : FVec F S_ .f32 := constant S_ .f32 0x7F800000#32
  let main_v15 : FVec F S8x16x512x512 .f32 := broadcastInDim S8x16x512x512 ![] bcast_S_S8x16x512x512 main_cst_4
  let main_v16 : IVec S8x16x512x512 1 := cmpf .olt main_v14 main_v15
  fn_part1 (F := F) main_v13 main_v16
-- ==== Kernel.lean ====
abbrev S128x512x64 : Shape := ⟨3, ![128, 512, 64]⟩
abbrev S8x16x512x512 : Shape := ⟨4, ![8, 16, 512, 512]⟩
abbrev S128x512x512 : Shape := ⟨3, ![128, 512, 512]⟩
abbrev S2x512x64 : Shape := ⟨3, ![2, 512, 64]⟩
abbrev S2x512x512 : Shape := ⟨3, ![2, 512, 512]⟩
abbrev S2x512 : Shape := ⟨2, ![2, 512]⟩
abbrev S2x512x1 : Shape := ⟨3, ![2, 512, 1]⟩

abbrev nBuf : Space → Nat
  | .hbm => 10
  | .vmem => 14
  | .smem => 0
  | _ => 0

abbrev bufTy : (tb : Table) → Fin (tcTables nBuf tb) → BufTy
  | .hbm, ⟨0, _⟩ => ⟨S128x512x64, .f32⟩
  | .hbm, ⟨1, _⟩ => ⟨S128x512x64, .f32⟩
  | .hbm, ⟨2, _⟩ => ⟨S128x512x64, .f32⟩
  | .hbm, ⟨3, _⟩ => ⟨S8x16x512x512, .f32⟩
  | .hbm, ⟨4, _⟩ => ⟨S8x16x512x512, .i1⟩
  | .hbm, ⟨5, _⟩ => ⟨S128x512x512, .f32⟩
  | .hbm, ⟨6, _⟩ => ⟨S128x512x512, .i1⟩
  | .hbm, ⟨7, _⟩ => ⟨S128x512x512, .i32⟩
  | .hbm, ⟨8, _⟩ => ⟨S128x512x64, .f32⟩
  | .hbm, ⟨9, _⟩ => ⟨S128x512x512, .f32⟩
  | .local _ .vmem, ⟨0, _⟩ => ⟨S2x512x64, .f32⟩
  | .local _ .vmem, ⟨1, _⟩ => ⟨S2x512x64, .f32⟩
  | .local _ .vmem, ⟨2, _⟩ => ⟨S2x512x64, .f32⟩
  | .local _ .vmem, ⟨3, _⟩ => ⟨S2x512x64, .f32⟩
  | .local _ .vmem, ⟨4, _⟩ => ⟨S2x512x64, .f32⟩
  | .local _ .vmem, ⟨5, _⟩ => ⟨S2x512x64, .f32⟩
  | .local _ .vmem, ⟨6, _⟩ => ⟨S2x512x512, .f32⟩
  | .local _ .vmem, ⟨7, _⟩ => ⟨S2x512x512, .f32⟩
  | .local _ .vmem, ⟨8, _⟩ => ⟨S2x512x512, .i32⟩
  | .local _ .vmem, ⟨9, _⟩ => ⟨S2x512x512, .i32⟩
  | .local _ .vmem, ⟨10, _⟩ => ⟨S2x512x64, .f32⟩
  | .local _ .vmem, ⟨11, _⟩ => ⟨S2x512x64, .f32⟩
  | .local _ .vmem, ⟨12, _⟩ => ⟨S2x512x512, .f32⟩
  | .local _ .vmem, ⟨13, _⟩ => ⟨S2x512x512, .f32⟩
  | _, _ => ⟨S128x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x16x512x512_S128x512x512 : S8x16x512x512.ShapeCasts S128x512x512
  natLt_1_32 : 1 < 32
  inb_S2x512x64_S2x512x64_0_0_0 : ∀ a, (![0, 0, 0] : Fin 3 → Nat) a + S2x512x64.size a ≤ S2x512x64.size a
  h_S2x512x64 : 0 < S2x512x64.numel
  bitsLt_bf16_f32 : FTy.bits .bf16 < FTy.bits .f32
  inb_S2x512x512_S2x512x512_0_0_0 : ∀ a, (![0, 0, 0] : Fin 3 → Nat) a + S2x512x512.size a ≤ S2x512x512.size a
  h_S2x512x512 : 0 < S2x512x512.numel
  shapeCasts_S2x512x512_S2x512x512 : S2x512x512.ShapeCasts S2x512x512
  reduces_S2x512x512_S2x512 : S2x512x512.Reduces [2] S2x512
  shapeCasts_S2x512_S2x512x1 : S2x512.ShapeCasts S2x512x1
  broadcasts_S2x512x1_S2x512x512 : S2x512x1.Broadcasts S2x512x512
  dot_S2x512x64_S2x512x64_S2x512x512_2_2_1_1_0_0_wf : DotDims.WF S2x512x64 S2x512x64 S2x512x512 [2] [2] [1] [1] [0] [0]
  dot_S2x512x512_S2x512x64_S2x512x64_2_1_1_2_0_0_wf : DotDims.WF S2x512x512 S2x512x64 S2x512x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x64.size a ≤ S128x512x64.size a
  hwx0_0 : ∀ i : grid0.Coords, EltTy.bits .f32 = 32 ∨ (Rect.block (s := S128x512x64) S2x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x64.size a ≤ S128x512x64.size a
  hwx0_1 : ∀ i : grid0.Coords, EltTy.bits .f32 = 32 ∨ (Rect.block (s := S128x512x64) S2x512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512x64.size a ≤ S128x512x64.size a
  hwx0_2 : ∀ i : grid0.Coords, EltTy.bits .f32 = 32 ∨ (Rect.block (s := S128x512x64) S2x512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x512x512.size a ≤ S128x512x512.size a
  hwx0_3 : ∀ i : grid0.Coords, EltTy.bits .f32 = 32 ∨ (Rect.block (s := S128x512x512) S2x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x512x512.size a ≤ S128x512x512.size a
  hwx0_4 : ∀ i : grid0.Coords, EltTy.bits .i32 = 32 ∨ (Rect.block (s := S128x512x512) S2x512x512.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x512x64.size a ≤ S128x512x64.size a
  hwx0_5 : ∀ i : grid0.Coords, EltTy.bits .f32 = 32 ∨ (Rect.block (s := S128x512x64) S2x512x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x512x512.size a ≤ S128x512x512.size a
  hwx0_6 : ∀ i : grid0.Coords, EltTy.bits .f32 = 32 ∨ (Rect.block (s := S128x512x512) S2x512x512.size (cc0_transform_6 i) (hinb0_6 i)).WholeWords (EltTy.packing .f32)

variable [Facts₀]

def dot_S2x512x64_S2x512x64_S2x512x512_2_2_1_1_0_0 : DotDims S2x512x64 S2x512x64 S2x512x512 where
  lhsContracting := [2]
  rhsContracting := [2]
  lhsNonContracting := [1]
  rhsNonContracting := [1]
  lhsBatch := [0]
  rhsBatch := [0]
  wf := dot_S2x512x64_S2x512x64_S2x512x512_2_2_1_1_0_0_wf
def dot_S2x512x512_S2x512x64_S2x512x64_2_1_1_2_0_0 : DotDims S2x512x512 S2x512x64 S2x512x64 where
  lhsContracting := [2]
  rhsContracting := [1]
  lhsNonContracting := [1]
  rhsNonContracting := [2]
  lhsBatch := [0]
  rhsBatch := [0]
  wf := dot_S2x512x512_S2x512x64_S2x512x64_2_1_1_2_0_0_wf

abbrev win0_0 : Pipeline.Window sig grid0 :=
  Pipeline.Window.ofSpec (Memref.whole main_arg0) S2x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2x512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2x512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S2x512x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S2x512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S128x512x64 : Shape := ⟨3, ![128, 512, 64]⟩
abbrev S8x16x512x512 : Shape := ⟨4, ![8, 16, 512, 512]⟩
abbrev S_ : Shape := ⟨0, ![]⟩
abbrev S128x512x512 : Shape := ⟨3, ![128, 512, 512]⟩
abbrev S128x512 : Shape := ⟨2, ![128, 512]⟩
abbrev S128x512x1 : Shape := ⟨3, ![128, 512, 1]⟩

abbrev nBuf : Space → Nat
  | .hbm => 34
  | .vmem => 0
  | .smem => 0
  | _ => 0

abbrev bufTy : (tb : Table) → Fin (tcTables nBuf tb) → BufTy
  | .hbm, ⟨0, _⟩ => ⟨S128x512x64, .f32⟩
  | .hbm, ⟨1, _⟩ => ⟨S128x512x64, .f32⟩
  | .hbm, ⟨2, _⟩ => ⟨S128x512x64, .f32⟩
  | .hbm, ⟨3, _⟩ => ⟨S8x16x512x512, .f32⟩
  | .hbm, ⟨4, _⟩ => ⟨S8x16x512x512, .i1⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S128x512x512, .f32⟩
  | .hbm, ⟨10, _⟩ => ⟨S128x512x512, .f32⟩
  | .hbm, ⟨11, _⟩ => ⟨S128x512x512, .f32⟩
  | .hbm, ⟨12, _⟩ => ⟨S8x16x512x512, .f32⟩
  | .hbm, ⟨13, _⟩ => ⟨S8x16x512x512, .f32⟩
  | .hbm, ⟨14, _⟩ => ⟨S_, .f32⟩
  | .hbm, ⟨15, _⟩ => ⟨S_, .f32⟩
  | .hbm, ⟨16, _⟩ => ⟨S8x16x512x512, .f32⟩
  | .hbm, ⟨17, _⟩ => ⟨S8x16x512x512, .f32⟩
  | .hbm, ⟨18, _⟩ => ⟨S128x512x512, .f32⟩
  | .hbm, ⟨19, _⟩ => ⟨S_, .f32⟩
  | .hbm, ⟨20, _⟩ => ⟨S128x512, .f32⟩
  | .hbm, ⟨21, _⟩ => ⟨S_, .f32⟩
  | .hbm, ⟨22, _⟩ => ⟨S128x512, .f32⟩
  | .hbm, ⟨23, _⟩ => ⟨S128x512, .f32⟩
  | .hbm, ⟨24, _⟩ => ⟨S128x512x1, .f32⟩
  | .hbm, ⟨25, _⟩ => ⟨S128x512x512, .f32⟩
  | .hbm, ⟨26, _⟩ => ⟨S128x512x512, .f32⟩
  | .hbm, ⟨27, _⟩ => ⟨S128x512x512, .f32⟩
  | .hbm, ⟨28, _⟩ => ⟨S_, .f32⟩
  | .hbm, ⟨29, _⟩ => ⟨S128x512, .f32⟩
  | .hbm, ⟨30, _⟩ => ⟨S128x512x1, .f32⟩
  | .hbm, ⟨31, _⟩ => ⟨S128x512x512, .f32⟩
  | .hbm, ⟨32, _⟩ => ⟨S128x512x512, .f32⟩
  | .hbm, ⟨33, _⟩ => ⟨S128x512x64, .f32⟩
  | _, _ => ⟨S128x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]

class Facts₀ : Prop where
  bcast_S_S128x512x512 : S_.BroadcastsInDim S128x512x512 (![] : Fin 0 → Fin S128x512x512.rank)
  shapeCasts_S128x512x512_S8x16x512x512 : S128x512x512.ShapeCasts S8x16x512x512
  bcast_S_S8x16x512x512 : S_.BroadcastsInDim S8x16x512x512 (![] : Fin 0 → Fin S8x16x512x512.rank)
  shapeCasts_S8x16x512x512_S128x512x512 : S8x16x512x512.ShapeCasts S128x512x512
  reducesTo_S128x512x512_S128x512_d2 : S128x512x512.ReducesTo [2] S128x512
  h_S_ : 0 < S_.numel
  bcast_S_S128x512 : S_.BroadcastsInDim S128x512 (![] : Fin 0 → Fin S128x512.rank)
  bcast_S128x512_S128x512x1_0_1 : S128x512.BroadcastsInDim S128x512x1 (![0, 1] : Fin 2 → Fin S128x512x1.rank)
  bcast_S128x512x1_S128x512x512_0_1_2 : S128x512x1.BroadcastsInDim S128x512x512 (![0, 1, 2] : Fin 3 → Fin S128x512x512.rank)
  dot_S128x512x64_S128x512x64_S128x512x512_2_2_1_1_0_0_wf : DotDims.WF S128x512x64 S128x512x64 S128x512x512 [2] [2] [1] [1] [0] [0]
  dot_S128x512x512_S128x512x64_S128x512x64_2_1_1_2_0_0_wf : DotDims.WF S128x512x512 S128x512x64 S128x512x64 [2] [1] [1] [2] [0] [0]

variable [Facts₀]

def dot_S128x512x64_S128x512x64_S128x512x512_2_2_1_1_0_0 : DotDims S128x512x64 S128x512x64 S128x512x512 where
  lhsContracting := [2]
  rhsContracting := [2]
  lhsNonContracting := [1]
  rhsNonContracting := [1]
  lhsBatch := [0]
  rhsBatch := [0]
  wf := dot_S128x512x64_S128x512x64_S128x512x512_2_2_1_1_0_0_wf
def dot_S128x512x512_S128x512x64_S128x512x64_2_1_1_2_0_0 : DotDims S128x512x512 S128x512x64 S128x512x64 where
  lhsContracting := [2]
  rhsContracting := [1]
  lhsNonContracting := [1]
  rhsNonContracting := [2]
  lhsBatch := [0]
  rhsBatch := [0]
  wf := dot_S128x512x512_S128x512x64_S128x512x64_2_1_1_2_0_0_wf

class Facts : Prop extends Facts₀ where

variable [Facts]
-- ==== Proof.Attention.lean ====
/-
  Scaled dot-product attention with an additive bias and a replacing mask, on the extended reals.

  For head `h`, query row `q` and key column `k` the score is
      s(h,q,k) = (∑_d Q(h,q,d) · K(h,k,d)) · (1/8) + B(h,q,k)   where the mask bit M(h,q,k) is set,
      s(h,q,k) = the fill value (the f32 nearest to -10^12)         where it is not.
  A row's weights are its softmax, taken against the row's maximum:
      w(h,q,k) = exp (s(h,q,k) - max_k' s(h,q,k')) / ∑_k' exp (s(h,q,k') - max_k'' s(h,q,k'')),
  the maximum folded from -∞. The context is w's product with V over the key axis:
      c(h,q,d) = ∑_k w(h,q,k) · V(h,k,d).
  Both are stated here as ONE function of the whole arrays, index by index. Every operation is the exact one on
  the extended reals (`Ideal.exp`, `Ideal.div`, `max`, `+`, `·`); nothing below needs an input to be finite, because
  the two programs compared against this specification compute the same expression in the same shape and differ
  only in the order of two sums, in a maximum taken once more against its own seed, in how the scale 1/8 is
  spelt, and in where the bias and the mask sit in memory.

  The bias and the mask are given grouped, as [8, 16, 512, 512] arrays; head `h` of the flat [128, 512, 512] layout
  is group `h / 16`, member `h % 16` (row-major): `grouped`.
-/
import Idealize.ShloMosaic.PureOps.Ideal
import Idealize.ShloMosaic.PureOps.Ideal.Laws
import Idealize.ShloMosaic.Lib.ValueIdx

noncomputable section

namespace Cert.Attention

open Idealize.ShloMosaic Idealize.ShloMosaic.ValueIdx

/-- Queries, keys, values and the context: 128 heads, 512 positions, 64 features. -/
abbrev Heads : Shape := ⟨3, ![128, 512, 64]⟩
/-- Scores and weights: 128 heads, 512 query rows, 512 key columns. -/
abbrev Pairs : Shape := ⟨3, ![128, 512, 512]⟩
/-- The bias and the mask as given: 8 groups of 16 heads. -/
abbrev Grouped : Shape := ⟨4, ![8, 16, 512, 512]⟩

/-- -∞, the seed of a row's maximum, as both programs spell it. -/
abbrev negInf : EReal := Ideal.ofBits .f32 0xFF800000#32
/-- The value a masked-out score is replaced by, as both programs spell it. -/
abbrev fill : EReal := Ideal.ofBits .f32 0xD368D4A5#32
/-- The scale 1/√64 as a float word: 0.125. -/
abbrev eighth : EReal := Ideal.ofBits .f32 0x3E000000#32

/-- One score: the scaled product plus the bias where the mask keeps it, the fill value where it does not. -/
def score (keep : BitVec 1) (dot bias : EReal) : EReal := Scalar.select keep (dot * eighth + bias) fill

/-- The softmax of one row of 512 scores at column `k`, taken against the row's maximum. -/
def rowSoftmax (s : Fin 512 → EReal) (k : Fin 512) : EReal :=
  Ideal.div (Ideal.exp (s k - Finset.univ.fold max negInf s))
    (∑ k' : Fin 512, Ideal.exp (s k' - Finset.univ.fold max negInf s))

/-- Row `q` of head `h`'s scores, from the whole arrays: `B` the bias and `M` the mask in the flat layout. -/
def scoreRow (Q K : Heads.Idx → EReal) (B : Pairs.Idx → EReal) (M : Pairs.Idx → BitVec 1) (h : Fin 128) (q : Fin 512) :
    Fin 512 → EReal :=
  fun k => score (M (ix3 h q k)) (∑ d : Fin 64, Q (ix3 h q d) * K (ix3 h k d)) (B (ix3 h q k))

/-- The attention weights, index by index. -/
def weights (Q K : Heads.Idx → EReal) (B : Pairs.Idx → EReal) (M : Pairs.Idx → BitVec 1) : Pairs.Idx → EReal :=
  fun i => rowSoftmax (scoreRow Q K B M (i 0) (i 1)) (i 2)

/-- The context, index by index: the weights' row against the values' column. -/
def context (Q K V : Heads.Idx → EReal) (B : Pairs.Idx → EReal) (M : Pairs.Idx → BitVec 1) : Heads.Idx → EReal :=
  fun i => ∑ k : Fin 512, weights Q K B M (ix3 (i 0) (i 1) k) * V (ix3 (i 0) k (i 2))

/-- Where entry (h, q, k) of the flat layout sits in the grouped one: (h / 16, h % 16, q, k). -/
def grouped (i : Pairs.Idx) : Grouped.Idx := fun a => match a with
  | ⟨0, _⟩ => ⟨(i 0).val / 16, by have h0 : (i 0).val < 128 := (i 0).isLt; show (i 0).val / 16 < 8; omega⟩
  | ⟨1, _⟩ => ⟨(i 0).val % 16, by show (i 0).val % 16 < 16; omega⟩
  | ⟨2, _⟩ => ⟨(i 1).val, (i 1).isLt⟩
  | ⟨3, _⟩ => ⟨(i 2).val, (i 2).isLt⟩

/-! ## The three small laws -/

/-- A maximum folded from a seed is already above the seed: taking it against the seed once more changes nothing. -/
theorem max_seed_fold (a : EReal) (s : Fin 512 → EReal) :
    max a (Finset.univ.fold max a s) = Finset.univ.fold max a s :=
  max_eq_right ((Finset.le_fold_max a).mpr (Or.inl le_rfl))

/-- A mask bit widened to 32 bits is nonzero exactly when the bit is set. -/
theorem widened_ne_zero (b : BitVec 1) : IntOp.cmpi .ne (b.setWidth 32) 0#32 = b := by
  rcases BitVec.eq_zero_or_eq_one b with h | h <;> subst h <;> decide

/-- The word 64.0 denotes 64, the word 1.0 denotes 1, the word 0.125 denotes 1/8. -/
theorem ofBits_64 : Ideal.ofBits .f32 0x42800000#32 = ((64 : ℝ) : EReal) := by
  simp [Ideal.ofBits, Ideal.ieee, -EReal.coe_mul]; norm_num
theorem ofBits_1 : Ideal.ofBits .f32 0x3F800000#32 = ((1 : ℝ) : EReal) := by
  simp [Ideal.ofBits, Ideal.ieee, -EReal.coe_mul]; norm_num
theorem ofBits_eighth : eighth = ((1 / 8 : ℝ) : EReal) := by
  simp [eighth, Ideal.ofBits, Ideal.ieee, -EReal.coe_mul]; norm_num

/-- 1 / √64 is 1/8: the square root of 64 is 8 exactly, and the quotient of 1 by 8 is the dyadic 0.125. -/
theorem one_div_sqrt_64 :
    Ideal.div (Ideal.ofBits .f32 0x3F800000#32) (Ideal.sqrt (Ideal.ofBits .f32 0x42800000#32)) = eighth := by
  have h8 : Real.sqrt 64 = 8 := by
    rw [show (64 : ℝ) = 8 ^ 2 by norm_num]; exact Real.sqrt_sq (by norm_num)
  rw [ofBits_64, ofBits_1, Ideal.sqrt_coe, if_neg (by norm_num), h8, Ideal.div_coe (by norm_num), ofBits_eighth,
    ← EReal.coe_mul, one_mul]

end Cert.Attention

end
-- ==== Proof.RefAttention.lean ====
/-
  The reference computes the specification. Its host program forms the scores of all 128 heads at once,
  regroups them as [8, 16, 512, 512] to add the bias and apply the mask where those arrays live, flattens back,
  and takes the softmax along the last axis and the product with the values. Read at an index:

  * the two regroupings cancel: entry (h, q, k) goes to (h / 16, h % 16, q, k) and comes back;
  * the scale is written 1 / √64, which is the dyadic 1/8 (`Attention.one_div_sqrt_64`);
  * the row maximum is a fold of `max` from -∞ over the key axis, then taken once more against -∞, which
    changes nothing (`Attention.max_seed_fold`);
  * the denominator is 0 plus the sum over the key axis.
  So the weights are `Attention.weights` and the context `Attention.context` of the arguments, the bias and the
  mask read through `Attention.grouped`.
-/
import proofs.«175101_j88132728914540_2_alg».proof.Proof.Gen.ReferenceIdeal.Read
import proofs.«175101_j88132728914540_2_alg».proof.Proof.Attention
import Idealize.ShloMosaic.PureOps.Reduce

noncomputable section

namespace Cert.ReferenceIdeal.RefValue

open Cert.ReferenceIdeal Cert.ReferenceIdeal.Gen Cert.ReferenceIdeal.Read Cert.Attention
open Idealize.ShloMosaic Idealize.ShloMosaic.ValueIdx

variable (x0 x1 x2 : (⟨S128x512x64, .f32⟩ : BufTy).Contents (Elt Ideal))
  (x3 : (⟨S8x16x512x512, .f32⟩ : BufTy).Contents (Elt Ideal))
  (x4 : (⟨S8x16x512x512, .i1⟩ : BufTy).Contents (Elt Ideal))

/-! ## Index equations -/

/-- Flat entry (h, q, k) sits at (h / 16, h % 16, q, k) of the grouped layout. -/
theorem regroup (h : Fin 128) (q k : Fin 512) : idx_main_v8 (ix3 h q k) = grouped (ix3 h q k) :=
  funext fun a => Fin.ext (by
    have hh : h.val < 128 := h.isLt; have hq : q.val < 512 := q.isLt; have hk : k.val < 512 := k.isLt
    match a with
    | ⟨0, _⟩ => show ((h.val * 512 + q.val) * 512 + k.val) / 4194304 = h.val / 16; omega
    | ⟨1, _⟩ => show ((h.val * 512 + q.val) * 512 + k.val) / 262144 % 16 = h.val % 16; omega
    | ⟨2, _⟩ => show ((h.val * 512 + q.val) * 512 + k.val) / 512 % 512 = q.val; omega
    | ⟨3, _⟩ => show ((h.val * 512 + q.val) * 512 + k.val) % 512 = k.val; omega)

/-- ... and the grouped entry goes back to flat entry (h, q, k). -/
theorem flatten (h : Fin 128) (q k : Fin 512) : idx_main_v5 (grouped (ix3 h q k)) = ix3 h q k :=
  funext fun a => Fin.ext (by
    have hh : h.val < 128 := h.isLt; have hq : q.val < 512 := q.isLt; have hk : k.val < 512 := k.isLt
    match a with
    | ⟨0, _⟩ => show ((((h.val / 16) * 16 + h.val % 16) * 512 + q.val) * 512 + k.val) / 262144 = h.val; omega
    | ⟨1, _⟩ => show ((((h.val / 16) * 16 + h.val % 16) * 512 + q.val) * 512 + k.val) / 512 % 512 = q.val; omega
    | ⟨2, _⟩ => show ((((h.val / 16) * 16 + h.val % 16) * 512 + q.val) * 512 + k.val) % 512 = k.val; omega)

/-- The first product's operands at (h, q, k) and feature d: row q of Q and row k of K, both of head h. -/
theorem lidx_scores (h : Fin 128) (q k : Fin 512) (d : Fin 64) : lidx_main_v2 (ix3 h q k) d = ix3 h q d :=
  funext fun a => Fin.ext (by match a with | ⟨0, _⟩ => rfl | ⟨1, _⟩ => rfl | ⟨2, _⟩ => rfl)
theorem ridx_scores (h : Fin 128) (q k : Fin 512) (d : Fin 64) : ridx_main_v2 (ix3 h q k) d = ix3 h k d :=
  funext fun a => Fin.ext (by match a with | ⟨0, _⟩ => rfl | ⟨1, _⟩ => rfl | ⟨2, _⟩ => rfl)

/-! ## One score -/

/-- The masked, scaled, biased score of the reference at (h, q, k) is the specification's. -/
theorem score_at (h : Fin 128) (q k : Fin 512) :
    val_main_v8 (F := Ideal) x0 x1 x3 x4 (ix3 h q k)
      = scoreRow x0 x1 (fun i => x3 (grouped i)) (fun i => x4 (grouped i)) h q k := by
  rw [val_main_v8_apply, val_main_v7_apply, val_main_v6_apply, val_main_v5_apply, regroup, flatten, val_main_v4_apply,
    val_main_v2_apply, val_main_v3_apply, val_main_v1_apply, val_main_v0_apply, val_main_cst_apply, val_main_cst_0_apply,
    val_main_call0_v1_apply, val_main_call0_v0_apply, val_main_cst_1_apply]
  simp only [lidx_scores, ridx_scores, Ideal.mulf_def, Ideal.addf_def, Ideal.hostDivf_def, Ideal.hostUnary_sqrt_def,
    Ideal.ofBits_def, one_div_sqrt_64]
  rfl

/-! ## One row's maximum, its exponentials, and the two results -/

/-- The key axis of the flat layout is reduced away into [128, 512]. -/
theorem keys_reduce : S128x512x512.Reduces [2] S128x512 := by decide

/-- Row (h, q) with key k put back in is entry (h, q, k). -/
theorem lift_row (h : Fin 128) (q k : Fin 512) : keys_reduce.lift (ix2 h q) k = ix3 h q k :=
  funext fun a => Fin.ext (by match a with | ⟨0, _⟩ => rfl | ⟨1, _⟩ => rfl | ⟨2, _⟩ => rfl)

/-- A row statistic kept as a unit column and spread over the keys is read at the row. -/
theorem row_of_max (h : Fin 128) (q k : Fin 512) : idx_main_v12 (idx_main_v13 (ix3 h q k)) = ix2 h q :=
  funext fun a => Fin.ext (by match a with | ⟨0, _⟩ => rfl | ⟨1, _⟩ => rfl)
theorem row_of_sum (h : Fin 128) (q k : Fin 512) : idx_main_v17 (idx_main_v18 (ix3 h q k)) = ix2 h q :=
  funext fun a => Fin.ext (by match a with | ⟨0, _⟩ => rfl | ⟨1, _⟩ => rfl)
theorem key_of_sum (h : Fin 128) (q k : Fin 512) : idx_main_v16 (ix2 h q) k = ix3 h q k :=
  funext fun a => Fin.ext (by match a with | ⟨0, _⟩ => rfl | ⟨1, _⟩ => rfl | ⟨2, _⟩ => rfl)

/-- The reference's row maximum: the fold of `max` from -∞ over the row's scores; the second maximum against -∞
    is absorbed. -/
theorem rowmax_at (h : Fin 128) (q : Fin 512) :
    val_main_v11 (F := Ideal) x0 x1 x3 x4 (ix2 h q)
      = Finset.univ.fold max negInf (scoreRow x0 x1 (fun i => x3 (grouped i)) (fun i => x4 (grouped i)) h q) := by
  rw [val_main_v11_apply, val_main_v10_apply, val_main_cst_3_apply]
  unfold val_main_v9
  rw [Host.reduce_eq_fold_single FloatOps.maximumf _ _ reducesTo_S128x512x512_S128x512_d2 keys_reduce h_S_ (ix2 h q)]
  have e : (val_main_v8 (F := Ideal) x0 x1 x3 x4 ∘ keys_reduce.lift (ix2 h q))
      = scoreRow x0 x1 (fun i => x3 (grouped i)) (fun i => x4 (grouped i)) h q :=
    funext fun k => (congrArg (val_main_v8 (F := Ideal) x0 x1 x3 x4) (lift_row h q k)).trans (score_at x0 x1 x3 x4 h q k)
  rw [e, val_main_cst_2_apply]
  exact max_seed_fold _ _

/-- The exponential of a score less its row's maximum. -/
theorem exp_at (h : Fin 128) (q k : Fin 512) :
    val_main_v15 (F := Ideal) x0 x1 x3 x4 (ix3 h q k)
      = Ideal.exp (scoreRow x0 x1 (fun i => x3 (grouped i)) (fun i => x4 (grouped i)) h q k
          - Finset.univ.fold max negInf (scoreRow x0 x1 (fun i => x3 (grouped i)) (fun i => x4 (grouped i)) h q)) := by
  rw [val_main_v15_apply, val_main_v14_apply, val_main_v13_apply, val_main_v12_apply, row_of_max, rowmax_at, score_at]
  rfl

/-- THE WEIGHTS: the reference's second result is the specification's weights. -/
theorem weights_eq :
    val_main_v19 (F := Ideal) x0 x1 x3 x4 = weights x0 x1 (fun i => x3 (grouped i)) (fun i => x4 (grouped i)) := by
  funext i
  obtain ⟨h, q, k, rfl⟩ : ∃ (h : Fin 128) (q k : Fin 512), i = ix3 h q k := ⟨i 0, i 1, i 2, eq_ix3 i⟩
  rw [val_main_v19_apply, val_main_v18_apply, val_main_v17_apply, row_of_sum, val_main_v16_apply, val_main_cst_4_apply,
    exp_at]
  simp only [key_of_sum, exp_at, Ideal.hostDivf_def, Ideal.ofBits_def, Ideal.ofBits_zero_f32, zero_add]
  rfl

/-- The second product's operands at (h, q, d) and key k: the weights' row (h, q) and column d of V's head h. -/
theorem lidx_context (h : Fin 128) (q : Fin 512) (d : Fin 64) (k : Fin 512) : lidx_main_v20 (ix3 h q d) k = ix3 h q k :=
  funext fun a => Fin.ext (by match a with | ⟨0, _⟩ => rfl | ⟨1, _⟩ => rfl | ⟨2, _⟩ => rfl)
theorem ridx_context (h : Fin 128) (q : Fin 512) (d : Fin 64) (k : Fin 512) : ridx_main_v20 (ix3 h q d) k = ix3 h k d :=
  funext fun a => Fin.ext (by match a with | ⟨0, _⟩ => rfl | ⟨1, _⟩ => rfl | ⟨2, _⟩ => rfl)

/-- THE CONTEXT: the reference's first result is the specification's context. -/
theorem context_eq :
    val_main_v20 (F := Ideal) x0 x1 x2 x3 x4
      = context x0 x1 x2 (fun i => x3 (grouped i)) (fun i => x4 (grouped i)) := by
  funext i
  obtain ⟨h, q, d, rfl⟩ : ∃ (h : Fin 128) (q : Fin 512) (d : Fin 64), i = ix3 h q d := ⟨i 0, i 1, i 2, eq_ix3 i⟩
  rw [val_main_v20_apply, weights_eq]
  simp only [lidx_context, ridx_context]
  rfl

end Cert.ReferenceIdeal.RefValue

end
-- ==== Proof.BlockAttention.lean ====
/-
  One grid step computes two heads. This module reads what the step's two stores hold, entry by entry, as a
  function of the step's five input blocks: Q, K, V blocks of [2, 512, 64], a bias block and a mask block of
  [2, 512, 512], the mask as 32-bit words.

  * The first matrix product contracts the feature axis within each of the two heads: at (b, q, k) it is
    ∑_d Q(b,q,d) · K(b,k,d); the narrowing of its operands to 16 bits is the identity on exact values, and its
    accumulator is zero.
  * A score is that product times 1/8 plus the bias, kept where the mask word is nonzero and replaced by the fill
    value elsewhere: `Attention.score`.
  * The row statistics are reduced over the key axis into [2, 512], kept as a unit column [2, 512, 1] and spread
    back over the 512 keys: at (b, q, k) they are the statistic of row (b, q). The maximum is a fold of `max`
    from -∞, the denominator a plain sum. So the stored weights at (b, q, k) are `Attention.rowSoftmax` of row
    (b, q)'s scores at k — proved once for ANY block of scores.
  * The second product contracts the key axis: the context at (b, q, d) is ∑_k w(b,q,k) · V(b,k,d).
-/
import proofs.«175101_j88132728914540_2_alg».proof.Proof.Gen.KernelIdeal.Skeleton
import proofs.«175101_j88132728914540_2_alg».proof.Proof.Attention
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Cert.Attention
open Idealize.ShloMosaic Idealize.ShloMosaic.ValueIdx

/-- The product of the queries with the keys, and of the weights with the values: their dimension records. -/
abbrev QK : DotDims S2x512x64 S2x512x64 S2x512x512 := dot_S2x512x64_S2x512x64_S2x512x512_2_2_1_1_0_0
abbrev WV : DotDims S2x512x512 S2x512x64 S2x512x64 := dot_S2x512x512_S2x512x64_S2x512x64_2_1_1_2_0_0

/-! ## A row statistic kept as a unit column and spread over the keys -/

/-- At (b, q, k) the spread column holds row (b, q)'s value. -/
theorem spread_row {α : Type} (v : S2x512.Idx → α) (b : Fin 2) (q k : Fin 512) :
    broadcastTo S2x512x512 (shapeCast S2x512x1 v shapeCasts_S2x512_S2x512x1) broadcasts_S2x512x1_S2x512x512 (ix3 b q k)
      = v (ix2 b q) :=
  (broadcastTo_apply (shapeCast S2x512x1 v shapeCasts_S2x512_S2x512x1) broadcasts_S2x512x1_S2x512x512 (ix3 b q k)
      (ix3 b q (0 : Fin 1)) (fun a => by
        match a with
        | ⟨0, _⟩ => show b.val = if (2 : Nat) = 1 then 0 else b.val; rw [if_neg (by decide)]
        | ⟨1, _⟩ => show q.val = if (512 : Nat) = 1 then 0 else q.val; rw [if_neg (by decide)]
        | ⟨2, _⟩ => show 0 = if (1 : Nat) = 1 then 0 else k.val; rw [if_pos rfl])).trans
    (shapeCast_apply v shapeCasts_S2x512_S2x512x1 (ix3 b q (0 : Fin 1)) (ix2 b q) (by
      rw [Shape.rowMajor_val_two, Shape.rowMajor_val_three]
      show b.val * 512 + q.val = (b.val * 512 + q.val) * 1 + 0
      omega))

/-! ## The two reductions over the key axis -/

/-- Row (b, q) with key k put back in is entry (b, q, k). -/
theorem lift_key (b : Fin 2) (q k : Fin 512) : reduces_S2x512x512_S2x512.lift (ix2 b q) k = ix3 b q k :=
  funext fun a => Fin.ext (by match a with | ⟨0, _⟩ => rfl | ⟨1, _⟩ => rfl | ⟨2, _⟩ => rfl)

/-- A row's maximum: the fold of `max` from -∞ over the row. -/
theorem rowMax_at (s : FVec Ideal S2x512x512 .f32) (b : Fin 2) (q : Fin 512) :
    multiReduction .maximumf [2] S2x512 s 0xFF800000#32 reduces_S2x512x512_S2x512 (.inl rfl) rfl (ix2 b q)
      = Finset.univ.fold max negInf (fun k : Fin 512 => s (ix3 b q k)) := by
  refine (Ideal.multiReduction_maximumf_single s 0xFF800000#32 reduces_S2x512x512_S2x512 (.inl rfl) rfl (ix2 b q)).trans ?_
  have e : (s ∘ reduces_S2x512x512_S2x512.lift (ix2 b q)) = fun k : Fin 512 => s (ix3 b q k) :=
    funext fun k => congrArg s (lift_key b q k)
  rw [e]
  rfl

/-- A row's sum. -/
theorem rowSum_at (p : FVec Ideal S2x512x512 .f32) (b : Fin 2) (q : Fin 512) :
    multiReduction .add [2] S2x512 p 0x00000000#32 reduces_S2x512x512_S2x512 (.inl rfl) rfl (ix2 b q)
      = ∑ k : Fin 512, p (ix3 b q k) := by
  refine (Ideal.multiReduction_add_single p 0x00000000#32 reduces_S2x512x512_S2x512 (.inl rfl) rfl (ix2 b q)).trans ?_
  exact Finset.sum_congr rfl fun k _ => congrArg p (lift_key b q k)

/-! ## The softmax of a block of scores, as the step computes it -/

/-- Each row's maximum. -/
def rowMax (s : FVec Ideal S2x512x512 .f32) : FVec Ideal S2x512 .f32 :=
  multiReduction .maximumf [2] S2x512 s 0xFF800000#32 reduces_S2x512x512_S2x512 (.inl rfl) rfl
/-- The exponentials of the scores less their row's maximum. -/
def expShifted (s : FVec Ideal S2x512x512 .f32) : FVec Ideal S2x512x512 .f32 :=
  exp (subf s (broadcastTo S2x512x512 (shapeCast S2x512x1 (rowMax s) shapeCasts_S2x512_S2x512x1) broadcasts_S2x512x1_S2x512x512))
/-- Each row's sum of exponentials. -/
def rowSum (s : FVec Ideal S2x512x512 .f32) : FVec Ideal S2x512 .f32 :=
  multiReduction .add [2] S2x512 (expShifted s) 0x00000000#32 reduces_S2x512x512_S2x512 (.inl rfl) rfl
/-- The normalized exponentials. -/
def softmaxBlock (s : FVec Ideal S2x512x512 .f32) : FVec Ideal S2x512x512 .f32 :=
  divf (expShifted s) (broadcastTo S2x512x512 (shapeCast S2x512x1 (rowSum s) shapeCasts_S2x512_S2x512x1) broadcasts_S2x512x1_S2x512x512)

theorem expShifted_at (s : FVec Ideal S2x512x512 .f32) (b : Fin 2) (q k : Fin 512) :
    expShifted s (ix3 b q k)
      = Ideal.exp (s (ix3 b q k) - Finset.univ.fold max negInf (fun k' : Fin 512 => s (ix3 b q k'))) := by
  unfold expShifted
  show Ideal.exp (s (ix3 b q k) - broadcastTo S2x512x512 (shapeCast S2x512x1 (rowMax s) shapeCasts_S2x512_S2x512x1)
    broadcasts_S2x512x1_S2x512x512 (ix3 b q k)) = _
  rw [spread_row]
  unfold rowMax
  rw [rowMax_at]

/-- THE SOFTMAX OF A BLOCK at (b, q, k) is the row softmax of row (b, q) at k, whatever the scores. -/
theorem softmaxBlock_at (s : FVec Ideal S2x512x512 .f32) (b : Fin 2) (q k : Fin 512) :
    softmaxBlock s (ix3 b q k) = rowSoftmax (fun k' : Fin 512 => s (ix3 b q k')) k := by
  unfold softmaxBlock
  show Ideal.div (expShifted s (ix3 b q k)) (broadcastTo S2x512x512 (shapeCast S2x512x1 (rowSum s) shapeCasts_S2x512_S2x512x1)
    broadcasts_S2x512x1_S2x512x512 (ix3 b q k)) = _
  rw [spread_row]
  unfold rowSum
  rw [rowSum_at]
  simp only [expShifted_at]
  rfl

/-! ## The two matrix products at an index -/

theorem qk_lhs0 (i : S2x512x512.Idx) (c : QK.contr.Idx) : (QK.lhsIdx i c 0).val = (i 0).val := by
  unfold DotDims.lhsIdx
  rw [dif_pos (show (0 : Fin S2x512x64.rank) ∈ QK.lhsBatch by decide)]
  rfl
theorem qk_lhs1 (i : S2x512x512.Idx) (c : QK.contr.Idx) : (QK.lhsIdx i c 1).val = (i 1).val := by
  unfold DotDims.lhsIdx
  rw [dif_neg (show ¬(1 : Fin S2x512x64.rank) ∈ QK.lhsBatch by decide), dif_pos (show (1 : Fin S2x512x64.rank) ∈ QK.lhsNonContracting by decide)]
  rfl
theorem qk_lhs2 (i : S2x512x512.Idx) (c : QK.contr.Idx) : (QK.lhsIdx i c 2).val = (c ⟨0, by decide⟩).val :=
  QK.lhsIdx_val_of_single rfl i c
theorem qk_rhs0 (i : S2x512x512.Idx) (c : QK.contr.Idx) : (QK.rhsIdx i c 0).val = (i 0).val := by
  unfold DotDims.rhsIdx
  rw [dif_pos (show (0 : Fin S2x512x64.rank) ∈ QK.rhsBatch by decide)]
  rfl
theorem qk_rhs1 (i : S2x512x512.Idx) (c : QK.contr.Idx) : (QK.rhsIdx i c 1).val = (i 2).val := by
  unfold DotDims.rhsIdx
  rw [dif_neg (show ¬(1 : Fin S2x512x64.rank) ∈ QK.rhsBatch by decide), dif_pos (show (1 : Fin S2x512x64.rank) ∈ QK.rhsNonContracting by decide)]
  rfl
theorem qk_rhs2 (i : S2x512x512.Idx) (c : QK.contr.Idx) : (QK.rhsIdx i c 2).val = (c ⟨0, by decide⟩).val :=
  QK.rhsIdx_val_of_single rfl i c

/-- Queries against keys, within a head: at (b, q, k) the sum over the features of Q(b,q,d) · K(b,k,d). -/
theorem qk_at (l r : FVec Ideal S2x512x64 .bf16) (b : Fin 2) (q k : Fin 512) :
    matmul QK none l r (constant S2x512x512 .f32 0x00000000#32) (ix3 b q k) = ∑ d : Fin 64, l (ix3 b q d) * r (ix3 b k d) := by
  simp only [matmul]
  rw [Ideal.matmul_constant_zero_apply, ← Equiv.sum_comp (contrEquiv1 QK 64 rfl rfl).symm]
  refine Finset.sum_congr rfl fun d _ => ?_
  have hd := contrEquiv1_symm_val QK 64 rfl rfl d
  have el : QK.lhsIdx (ix3 b q k) ((contrEquiv1 QK 64 rfl rfl).symm d) = ix3 b q d := funext fun a => Fin.ext (by
    match a with
    | ⟨0, _⟩ => exact qk_lhs0 _ _
    | ⟨1, _⟩ => exact qk_lhs1 _ _
    | ⟨2, _⟩ => exact (qk_lhs2 _ _).trans hd)
  have er : QK.rhsIdx (ix3 b q k) ((contrEquiv1 QK 64 rfl rfl).symm d) = ix3 b k d := funext fun a => Fin.ext (by
    match a with
    | ⟨0, _⟩ => exact qk_rhs0 _ _
    | ⟨1, _⟩ => exact qk_rhs1 _ _
    | ⟨2, _⟩ => exact (qk_rhs2 _ _).trans hd)
  rw [el, er]

theorem wv_lhs0 (i : S2x512x64.Idx) (c : WV.contr.Idx) : (WV.lhsIdx i c 0).val = (i 0).val := by
  unfold DotDims.lhsIdx
  rw [dif_pos (show (0 : Fin S2x512x512.rank) ∈ WV.lhsBatch by decide)]
  rfl
theorem wv_lhs1 (i : S2x512x64.Idx) (c : WV.contr.Idx) : (WV.lhsIdx i c 1).val = (i 1).val := by
  unfold DotDims.lhsIdx
  rw [dif_neg (show ¬(1 : Fin S2x512x512.rank) ∈ WV.lhsBatch by decide), dif_pos (show (1 : Fin S2x512x512.rank) ∈ WV.lhsNonContracting by decide)]
  rfl
theorem wv_lhs2 (i : S2x512x64.Idx) (c : WV.contr.Idx) : (WV.lhsIdx i c 2).val = (c ⟨0, by decide⟩).val :=
  WV.lhsIdx_val_of_single rfl i c
theorem wv_rhs0 (i : S2x512x64.Idx) (c : WV.contr.Idx) : (WV.rhsIdx i c 0).val = (i 0).val := by
  unfold DotDims.rhsIdx
  rw [dif_pos (show (0 : Fin S2x512x64.rank) ∈ WV.rhsBatch by decide)]
  rfl
theorem wv_rhs1 (i : S2x512x64.Idx) (c : WV.contr.Idx) : (WV.rhsIdx i c 1).val = (c ⟨0, by decide⟩).val :=
  WV.rhsIdx_val_of_single rfl i c
theorem wv_rhs2 (i : S2x512x64.Idx) (c : WV.contr.Idx) : (WV.rhsIdx i c 2).val = (i 2).val := by
  unfold DotDims.rhsIdx
  rw [dif_neg (show ¬(2 : Fin S2x512x64.rank) ∈ WV.rhsBatch by decide), dif_pos (show (2 : Fin S2x512x64.rank) ∈ WV.rhsNonContracting by decide)]
  rfl

/-- Weights against values, within a head: at (b, q, d) the sum over the keys of w(b,q,k) · V(b,k,d). -/
theorem wv_at (l : FVec Ideal S2x512x512 .bf16) (r : FVec Ideal S2x512x64 .bf16) (b : Fin 2) (q : Fin 512) (d : Fin 64) :
    matmul WV none l r (constant S2x512x64 .f32 0x00000000#32) (ix3 b q d) = ∑ k : Fin 512, l (ix3 b q k) * r (ix3 b k d) := by
  simp only [matmul]
  rw [Ideal.matmul_constant_zero_apply, ← Equiv.sum_comp (contrEquiv1 WV 512 rfl rfl).symm]
  refine Finset.sum_congr rfl fun k _ => ?_
  have hk := contrEquiv1_symm_val WV 512 rfl rfl k
  have el : WV.lhsIdx (ix3 b q d) ((contrEquiv1 WV 512 rfl rfl).symm k) = ix3 b q k := funext fun a => Fin.ext (by
    match a with
    | ⟨0, _⟩ => exact wv_lhs0 _ _
    | ⟨1, _⟩ => exact wv_lhs1 _ _
    | ⟨2, _⟩ => exact (wv_lhs2 _ _).trans hk)
  have er : WV.rhsIdx (ix3 b q d) ((contrEquiv1 WV 512 rfl rfl).symm k) = ix3 b k d := funext fun a => Fin.ext (by
    match a with
    | ⟨0, _⟩ => exact wv_rhs0 _ _
    | ⟨1, _⟩ => exact (wv_rhs1 _ _).trans hk
    | ⟨2, _⟩ => exact wv_rhs2 _ _)
  rw [el, er]

/-! ## The step's scores, and its two stores -/

/-- The block of scores the step forms from its Q, K, bias and mask blocks. -/
def blockScores (x0 x1 : Vec Ideal S2x512x64 .f32) (x3 : Vec Ideal S2x512x512 .f32) (x4 : Vec Ideal S2x512x512 .i32) :
    FVec Ideal S2x512x512 .f32 :=
  select (cmpi .ne (shapeCast S2x512x512 x4 shapeCasts_S2x512x512_S2x512x512) (constantI S2x512x512 32 0#32))
    (addf (mulf (matmul QK none (truncf .bf16 x0 bitsLt_bf16_f32) (truncf .bf16 x1 bitsLt_bf16_f32)
        (constant S2x512x512 .f32 0x00000000#32)) (broadcast S2x512x512 (Scalar.ofBits .f32 0x3E000000#32)))
      (shapeCast S2x512x512 x3 shapeCasts_S2x512x512_S2x512x512))
    (broadcast S2x512x512 (Scalar.ofBits .f32 0xD368D4A5#32))

/-- A score of the block at (b, q, k). -/
theorem blockScores_at (x0 x1 : Vec Ideal S2x512x64 .f32) (x3 : Vec Ideal S2x512x512 .f32) (x4 : Vec Ideal S2x512x512 .i32)
    (b : Fin 2) (q k : Fin 512) :
    blockScores x0 x1 x3 x4 (ix3 b q k)
      = score (IntOp.cmpi .ne (x4 (ix3 b q k)) 0#32) (∑ d : Fin 64, x0 (ix3 b q d) * x1 (ix3 b k d)) (x3 (ix3 b q k)) := by
  unfold blockScores score
  rw [shapeCast_self, shapeCast_self]
  show Scalar.select (IntOp.cmpi .ne (x4 (ix3 b q k)) 0#32)
      (matmul (F := Ideal) QK none (truncf (F := Ideal) .bf16 x0 bitsLt_bf16_f32) (truncf (F := Ideal) .bf16 x1 bitsLt_bf16_f32)
          (constant (F := Ideal) S2x512x512 .f32 0x00000000#32) (ix3 b q k) * eighth + x3 (ix3 b q k)) fill = _
  rw [qk_at]
  rfl

/-- THE WEIGHTS THE STEP STORES, at (b, q, k): the row softmax of row (b, q)'s scores at k. -/
theorem weights_block (x0 x1 : Vec Ideal S2x512x64 .f32) (x3 : Vec Ideal S2x512x512 .f32) (x4 : Vec Ideal S2x512x512 .i32)
    (b : Fin 2) (q k : Fin 512) :
    k0_pay1 x0 x1 x3 x4 (ix3 b q k)
      = rowSoftmax (fun k' : Fin 512 => score (IntOp.cmpi .ne (x4 (ix3 b q k')) 0#32)
          (∑ d : Fin 64, x0 (ix3 b q d) * x1 (ix3 b k' d)) (x3 (ix3 b q k'))) k := by
  rw [show k0_pay1 x0 x1 x3 x4 = softmaxBlock (blockScores x0 x1 x3 x4) from rfl, softmaxBlock_at]
  simp only [blockScores_at]

/-- THE CONTEXT THE STEP STORES, at (b, q, d): the stored weights' row against the V block's column. -/
theorem context_block (x0 x1 x2 : Vec Ideal S2x512x64 .f32) (x3 : Vec Ideal S2x512x512 .f32) (x4 : Vec Ideal S2x512x512 .i32)
    (b : Fin 2) (q : Fin 512) (d : Fin 64) :
    k0_pay2 x0 x1 x3 x4 x2 (ix3 b q d) = ∑ k : Fin 512, k0_pay1 x0 x1 x3 x4 (ix3 b q k) * x2 (ix3 b k d) := by
  unfold k0_pay2
  exact wv_at _ _ b q d

end Cert.KernelIdeal.Block

end
-- ==== Proof.HeadBlocks.lean ====
/-
  From the 64 grid steps to the two result arrays. Step t handles heads 2t and 2t + 1: every window's block at
  step t starts at head 2t and spans the whole of the other two axes, so entry (b, q, x) of a block is entry
  (2t + b, q, x) of its array. Before the launch the host flattens the bias from [8, 16, 512, 512] to
  [128, 512, 512] and flattens the mask and widens it to 32-bit words; flat entry (h, q, k) is grouped entry
  (h / 16, h % 16, q, k) (`Attention.grouped`), and a widened mask bit is nonzero exactly when it is set.
  So what step t writes back is block t of `Attention.weights` and of `Attention.context` of the launch arrays; the
  64 blocks tile both result arrays (entry i lies in block i₀ / 2), hence the arrays end holding those two
  functions.
-/
import proofs.«175101_j88132728914540_2_alg».proof.Proof.Gen.KernelIdeal.Frame
import proofs.«175101_j88132728914540_2_alg».proof.Proof.Gen.KernelIdeal.Value
import proofs.«175101_j88132728914540_2_alg».proof.Proof.BlockAttention
import proofs.«175101_j88132728914540_2_alg».proof.Proof.Attention
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.Heads

open Cert.KernelIdeal Cert.KernelIdeal.Gen Cert.KernelIdeal.Value Cert.KernelIdeal.Block Cert.Attention
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-! ## The index maps: every window's block at step t starts at head 2t -/

theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0) :=
  (by decide +kernel : ∀ t : Fin grid0.N, _)

/-- The head that entry b of step t's blocks belongs to. -/
def head (t : Fin cfg0.N) (b : Fin 2) : Fin 128 :=
  ⟨2 * t.val + b.val, by have ht := t.isLt; have hN : cfg0.N = 64 := N_0; have hb := b.isLt; omega⟩

/-! ## What the launch finds: the flattened bias and the flattened, widened mask -/

/-- Flat entry i of the bias is grouped entry `grouped i` of the argument. -/
theorem bias_found (c : Dev nD) :
    (V m c main_v0 : S128x512x512.Idx → EReal)
      = fun i => (m ((c : Thread nD τ).loc main_arg3) : S8x16x512x512.Idx → EReal) (grouped i) := by
  have e : (V m c main_v0 : S128x512x512.Idx → EReal)
      = shapeCast S128x512x512 (m ((c : Thread nD τ).loc main_arg3) : S8x16x512x512.Idx → EReal)
          shapeCasts_S8x16x512x512_S128x512x512 := by
    dsimp only [Gen.V, Gen.hostOps0]; after_results; rfl
  rw [e]
  funext i
  refine shapeCast_apply _ shapeCasts_S8x16x512x512_S128x512x512 i (grouped i) ?_
  rw [Shape.rowMajor_val_four, Shape.rowMajor_val_three]
  have h0 : (i 0).val < 128 := (i 0).isLt; have h1 : (i 1).val < 512 := (i 1).isLt; have h2 : (i 2).val < 512 := (i 2).isLt
  show (((i 0).val / 16 * 16 + (i 0).val % 16) * 512 + (i 1).val) * 512 + (i 2).val = ((i 0).val * 512 + (i 1).val) * 512 + (i 2).val
  omega

/-- Flat entry i of the mask words is grouped entry `grouped i` of the argument, widened. -/
theorem mask_found (c : Dev nD) :
    (V m c main_v2 : S128x512x512.Idx → BitVec 32)
      = fun i => ((m ((c : Thread nD τ).loc main_arg4) : S8x16x512x512.Idx → BitVec 1) (grouped i)).setWidth 32 := by
  have e : (V m c main_v2 : S128x512x512.Idx → BitVec 32)
      = extui 32 (shapeCast S128x512x512 (m ((c : Thread nD τ).loc main_arg4) : S8x16x512x512.Idx → BitVec 1)
          shapeCasts_S8x16x512x512_S128x512x512) natLt_1_32 := by
    dsimp only [Gen.V, Gen.hostOps0]; after_results; rfl
  rw [e]
  funext i
  rw [extui_apply]
  refine congrArg (BitVec.setWidth 32) (shapeCast_apply _ shapeCasts_S8x16x512x512_S128x512x512 i (grouped i) ?_)
  rw [Shape.rowMajor_val_four, Shape.rowMajor_val_three]
  have h0 : (i 0).val < 128 := (i 0).isLt; have h1 : (i 1).val < 512 := (i 1).isLt; have h2 : (i 2).val < 512 := (i 2).isLt
  show (((i 0).val / 16 * 16 + (i 0).val % 16) * 512 + (i 1).val) * 512 + (i 2).val = ((i 0).val * 512 + (i 1).val) * 512 + (i 2).val
  omega

/-! ## Each input window's block at an entry: entry (b, q, x) of step t's block is entry (2t + b, q, x) of the array -/

theorem qblock_at (c : Dev nD) (t : Fin cfg0.N) (b : Fin 2) (q : Fin 512) (d : Fin 64) :
    (iblk m c 0 t : Vec Ideal S2x512x64 .f32) (ix3 b q d) = (V m c main_arg0 : S128x512x64.Idx → EReal) (ix3 (head t b) q d) := by
  obtain ⟨⟨e0, e1, e2⟩, -⟩ := idx_facts t
  unfold iblk
  rw [View.read_apply]
  show (V m c main_arg0 : S128x512x64.Idx → EReal) _ = (V m c main_arg0 : S128x512x64.Idx → EReal) _
  refine congrArg (V m c main_arg0 : S128x512x64.Idx → EReal) ?_
  funext a
  apply Fin.ext
  match a with
  | ⟨0, _⟩ => show win0_0.index t (0 : Fin 3) * 2 + 1 * b.val = 2 * t.val + b.val; rw [e0]; omega
  | ⟨1, _⟩ => show win0_0.index t (1 : Fin 3) * 512 + 1 * q.val = q.val; rw [e1]; omega
  | ⟨2, _⟩ => show win0_0.index t (2 : Fin 3) * 64 + 1 * d.val = d.val; rw [e2]; omega

theorem kblock_at (c : Dev nD) (t : Fin cfg0.N) (b : Fin 2) (k : Fin 512) (d : Fin 64) :
    (iblk m c 1 t : Vec Ideal S2x512x64 .f32) (ix3 b k d) = (V m c main_arg1 : S128x512x64.Idx → EReal) (ix3 (head t b) k d) := by
  obtain ⟨-, ⟨e0, e1, e2⟩, -⟩ := idx_facts t
  unfold iblk
  rw [View.read_apply]
  show (V m c main_arg1 : S128x512x64.Idx → EReal) _ = (V m c main_arg1 : S128x512x64.Idx → EReal) _
  refine congrArg (V m c main_arg1 : S128x512x64.Idx → EReal) ?_
  funext a
  apply Fin.ext
  match a with
  | ⟨0, _⟩ => show win0_1.index t (0 : Fin 3) * 2 + 1 * b.val = 2 * t.val + b.val; rw [e0]; omega
  | ⟨1, _⟩ => show win0_1.index t (1 : Fin 3) * 512 + 1 * k.val = k.val; rw [e1]; omega
  | ⟨2, _⟩ => show win0_1.index t (2 : Fin 3) * 64 + 1 * d.val = d.val; rw [e2]; omega

theorem vblock_at (c : Dev nD) (t : Fin cfg0.N) (b : Fin 2) (k : Fin 512) (d : Fin 64) :
    (iblk m c 2 t : Vec Ideal S2x512x64 .f32) (ix3 b k d) = (V m c main_arg2 : S128x512x64.Idx → EReal) (ix3 (head t b) k d) := by
  obtain ⟨-, -, ⟨e0, e1, e2⟩, -⟩ := idx_facts t
  unfold iblk
  rw [View.read_apply]
  show (V m c main_arg2 : S128x512x64.Idx → EReal) _ = (V m c main_arg2 : S128x512x64.Idx → EReal) _
  refine congrArg (V m c main_arg2 : S128x512x64.Idx → EReal) ?_
  funext a
  apply Fin.ext
  match a with
  | ⟨0, _⟩ => show win0_2.index t (0 : Fin 3) * 2 + 1 * b.val = 2 * t.val + b.val; rw [e0]; omega
  | ⟨1, _⟩ => show win0_2.index t (1 : Fin 3) * 512 + 1 * k.val = k.val; rw [e1]; omega
  | ⟨2, _⟩ => show win0_2.index t (2 : Fin 3) * 64 + 1 * d.val = d.val; rw [e2]; omega

theorem biasblock_at (c : Dev nD) (t : Fin cfg0.N) (b : Fin 2) (q k : Fin 512) :
    (iblk m c 3 t : Vec Ideal S2x512x512 .f32) (ix3 b q k) = (V m c main_v0 : S128x512x512.Idx → EReal) (ix3 (head t b) q k) := by
  obtain ⟨-, -, -, ⟨e0, e1, e2⟩, -⟩ := idx_facts t
  unfold iblk
  rw [View.read_apply]
  show (V m c main_v0 : S128x512x512.Idx → EReal) _ = (V m c main_v0 : S128x512x512.Idx → EReal) _
  refine congrArg (V m c main_v0 : S128x512x512.Idx → EReal) ?_
  funext a
  apply Fin.ext
  match a with
  | ⟨0, _⟩ => show win0_3.index t (0 : Fin 3) * 2 + 1 * b.val = 2 * t.val + b.val; rw [e0]; omega
  | ⟨1, _⟩ => show win0_3.index t (1 : Fin 3) * 512 + 1 * q.val = q.val; rw [e1]; omega
  | ⟨2, _⟩ => show win0_3.index t (2 : Fin 3) * 512 + 1 * k.val = k.val; rw [e2]; omega

theorem maskblock_at (c : Dev nD) (t : Fin cfg0.N) (b : Fin 2) (q k : Fin 512) :
    (iblk m c 4 t : Vec Ideal S2x512x512 .i32) (ix3 b q k) = (V m c main_v2 : S128x512x512.Idx → BitVec 32) (ix3 (head t b) q k) := by
  obtain ⟨-, -, -, -, ⟨e0, e1, e2⟩, -⟩ := idx_facts t
  unfold iblk
  rw [View.read_apply]
  show (V m c main_v2 : S128x512x512.Idx → BitVec 32) _ = (V m c main_v2 : S128x512x512.Idx → BitVec 32) _
  refine congrArg (V m c main_v2 : S128x512x512.Idx → BitVec 32) ?_
  funext a
  apply Fin.ext
  match a with
  | ⟨0, _⟩ => show win0_4.index t (0 : Fin 3) * 2 + 1 * b.val = 2 * t.val + b.val; rw [e0]; omega
  | ⟨1, _⟩ => show win0_4.index t (1 : Fin 3) * 512 + 1 * q.val = q.val; rw [e1]; omega
  | ⟨2, _⟩ => show win0_4.index t (2 : Fin 3) * 512 + 1 * k.val = k.val; rw [e2]; omega

/-! ## What a step writes back -/

/-- The mask bit the steps test, from the words the launch finds. -/
def keepFound (c : Dev nD) : S128x512x512.Idx → BitVec 1 :=
  fun i => IntOp.cmpi .ne ((V m c main_v2 : S128x512x512.Idx → BitVec 32) i) 0#32

/-- The weights and the context of the arrays as the launch finds them. -/
def weightsFound (c : Dev nD) : S128x512x512.Idx → EReal :=
  weights (V m c main_arg0 : S128x512x64.Idx → EReal) (V m c main_arg1 : S128x512x64.Idx → EReal)
    (V m c main_v0 : S128x512x512.Idx → EReal) (keepFound m c)
def contextFound (c : Dev nD) : S128x512x64.Idx → EReal :=
  context (V m c main_arg0 : S128x512x64.Idx → EReal) (V m c main_arg1 : S128x512x64.Idx → EReal)
    (V m c main_arg2 : S128x512x64.Idx → EReal) (V m c main_v0 : S128x512x512.Idx → EReal) (keepFound m c)

/-- The weights step t stores at (b, q, k) are the specification's at (2t + b, q, k). -/
theorem stored_weights (c : Dev nD) (t : Fin cfg0.N) (b : Fin 2) (q k : Fin 512) :
    k0_pay1 (iblk m c 0 t) (iblk m c 1 t) (iblk m c 3 t) (iblk m c 4 t) (ix3 b q k)
      = weightsFound m c (ix3 (head t b) q k) := by
  refine (weights_block _ _ _ _ b q k).trans ?_
  simp only [qblock_at, kblock_at, biasblock_at, maskblock_at]
  rfl

/-- STEP t WRITES BACK BLOCK t OF THE WEIGHTS. -/
theorem flushed_weights (c : Dev nD) (t : Fin cfg0.N) :
    (dats m 0 c).flushed 6 t = ((cfg0.win 6).blk t).view.read (Elt Ideal) (weightsFound m c) := by
  obtain ⟨-, -, -, -, -, -, ⟨e0, e1, e2⟩⟩ := idx_facts t
  rw [flushed6]
  unfold out0_6
  rw [View.canon_unit_zero hz]
  simp only [View.ld_unit_zero (S := S2x512x64) hz, View.ld_unit_zero (S := S2x512x512) hz]
  refine funext fun (j : S2x512x512.Idx) => ?_
  obtain ⟨b, q, k, rfl⟩ : ∃ (b : Fin 2) (q k : Fin 512), j = ix3 b q k := ⟨j 0, j 1, j 2, eq_ix3 j⟩
  show k0_pay1 (iblk m c 0 t) (iblk m c 1 t) (iblk m c 3 t) (iblk m c 4 t) (ix3 b q k)
    = weightsFound m c (((cfg0.win 6).blk t).view.emb (ix3 b q k))
  have he : ((cfg0.win 6).blk t).view.emb (ix3 b q k) = ix3 (head t b) q k := by
    funext a
    apply Fin.ext
    match a with
    | ⟨0, _⟩ => show win0_6.index t (0 : Fin 3) * 2 + 1 * b.val = 2 * t.val + b.val; rw [e0]; omega
    | ⟨1, _⟩ => show win0_6.index t (1 : Fin 3) * 512 + 1 * q.val = q.val; rw [e1]; omega
    | ⟨2, _⟩ => show win0_6.index t (2 : Fin 3) * 512 + 1 * k.val = k.val; rw [e2]; omega
  rw [he]
  exact stored_weights m c t b q k

/-- STEP t WRITES BACK BLOCK t OF THE CONTEXT. -/
theorem flushed_context (c : Dev nD) (t : Fin cfg0.N) :
    (dats m 0 c).flushed 5 t = ((cfg0.win 5).blk t).view.read (Elt Ideal) (contextFound m c) := by
  obtain ⟨-, -, -, -, -, ⟨e0, e1, e2⟩, -⟩ := idx_facts t
  rw [flushed5]
  unfold out0_5
  rw [View.canon_unit_zero hz]
  simp only [View.ld_unit_zero (S := S2x512x64) hz, View.ld_unit_zero (S := S2x512x512) hz]
  refine funext fun (j : S2x512x64.Idx) => ?_
  obtain ⟨b, q, d, rfl⟩ : ∃ (b : Fin 2) (q : Fin 512) (d : Fin 64), j = ix3 b q d := ⟨j 0, j 1, j 2, eq_ix3 j⟩
  show k0_pay2 (iblk m c 0 t) (iblk m c 1 t) (iblk m c 3 t) (iblk m c 4 t) (iblk m c 2 t) (ix3 b q d)
    = contextFound m c (((cfg0.win 5).blk t).view.emb (ix3 b q d))
  have he : ((cfg0.win 5).blk t).view.emb (ix3 b q d) = ix3 (head t b) q d := by
    funext a
    apply Fin.ext
    match a with
    | ⟨0, _⟩ => show win0_5.index t (0 : Fin 3) * 2 + 1 * b.val = 2 * t.val + b.val; rw [e0]; omega
    | ⟨1, _⟩ => show win0_5.index t (1 : Fin 3) * 512 + 1 * q.val = q.val; rw [e1]; omega
    | ⟨2, _⟩ => show win0_5.index t (2 : Fin 3) * 64 + 1 * d.val = d.val; rw [e2]; omega
  rw [he]
  refine (context_block _ _ _ _ _ b q d).trans ?_
  simp only [stored_weights, vblock_at]
  rfl

/-! ## The 64 blocks tile each result array: entry i lies in the block of step i₀ / 2 -/

theorem mem_weights_block (t : Fin cfg0.N) (i : S128x512x512.Idx) :
    i ∈ ((cfg0.win 6).blk t).view.set
      ↔ ∀ a : Fin 3, win0_6.index t a * S2x512x512.size a ≤ (i a).val ∧ (i a).val < win0_6.index t a * S2x512x512.size a + S2x512x512.size a := by
  show i ∈ ((View.whole main_v3_1).slice (win0_6.rect t)).set ↔ _
  rw [View.set_slice_whole, Rect.mem_set_unit]
  exact Iff.rfl

theorem mem_context_block (t : Fin cfg0.N) (i : S128x512x64.Idx) :
    i ∈ ((cfg0.win 5).blk t).view.set
      ↔ ∀ a : Fin 3, win0_5.index t a * S2x512x64.size a ≤ (i a).val ∧ (i a).val < win0_5.index t a * S2x512x64.size a + S2x512x64.size a := by
  show i ∈ ((View.whole main_v3_0).slice (win0_5.rect t)).set ↔ _
  rw [View.set_slice_whole, Rect.mem_set_unit]
  exact Iff.rfl

theorem weights_covered (i : S128x512x512.Idx) :
    ∃ t : Fin cfg0.N, (cfg0.win 6).flush t = true ∧ i ∈ ((cfg0.win 6).blk t).view.set := by
  have hN : cfg0.N = 64 := N_0
  have h0 : (i 0).val < 128 := (i 0).isLt
  have h1 : (i 1).val < 512 := (i 1).isLt
  have h2 : (i 2).val < 512 := (i 2).isLt
  obtain ⟨t, ht⟩ : ∃ t : Fin cfg0.N, t.val = (i 0).val / 2 := ⟨⟨(i 0).val / 2, by omega⟩, rfl⟩
  obtain ⟨-, -, -, -, -, -, ⟨e0, e1, e2⟩⟩ := idx_facts t
  refine ⟨t, flush0_6 t, ?_⟩
  rw [mem_weights_block]
  intro a
  match a with
  | ⟨0, _⟩ => show win0_6.index t (0 : Fin 3) * 2 ≤ (i 0).val ∧ (i 0).val < win0_6.index t (0 : Fin 3) * 2 + 2; rw [e0]; omega
  | ⟨1, _⟩ => show win0_6.index t (1 : Fin 3) * 512 ≤ (i 1).val ∧ (i 1).val < win0_6.index t (1 : Fin 3) * 512 + 512; rw [e1]; omega
  | ⟨2, _⟩ => show win0_6.index t (2 : Fin 3) * 512 ≤ (i 2).val ∧ (i 2).val < win0_6.index t (2 : Fin 3) * 512 + 512; rw [e2]; omega

theorem context_covered (i : S128x512x64.Idx) :
    ∃ t : Fin cfg0.N, (cfg0.win 5).flush t = true ∧ i ∈ ((cfg0.win 5).blk t).view.set := by
  have hN : cfg0.N = 64 := N_0
  have h0 : (i 0).val < 128 := (i 0).isLt
  have h1 : (i 1).val < 512 := (i 1).isLt
  have h2 : (i 2).val < 64 := (i 2).isLt
  obtain ⟨t, ht⟩ : ∃ t : Fin cfg0.N, t.val = (i 0).val / 2 := ⟨⟨(i 0).val / 2, by omega⟩, rfl⟩
  obtain ⟨-, -, -, -, -, ⟨e0, e1, e2⟩, -⟩ := idx_facts t
  refine ⟨t, flush0_5 t, ?_⟩
  rw [mem_context_block]
  intro a
  match a with
  | ⟨0, _⟩ => show win0_5.index t (0 : Fin 3) * 2 ≤ (i 0).val ∧ (i 0).val < win0_5.index t (0 : Fin 3) * 2 + 2; rw [e0]; omega
  | ⟨1, _⟩ => show win0_5.index t (1 : Fin 3) * 512 ≤ (i 1).val ∧ (i 1).val < win0_5.index t (1 : Fin 3) * 512 + 512; rw [e1]; omega
  | ⟨2, _⟩ => show win0_5.index t (2 : Fin 3) * 64 ≤ (i 2).val ∧ (i 2).val < win0_5.index t (2 : Fin 3) * 64 + 64; rw [e2]; omega

/-! ## The two result arrays, as functions of the launch arrays -/

/-- The weights and the context of the ARGUMENTS: the bias and the mask read through the grouping. -/
abbrev weightsOf (c : Dev nD) : S128x512x512.Idx → EReal :=
  weights (m ((c : Thread nD τ).loc main_arg0) : S128x512x64.Idx → EReal) (m ((c : Thread nD τ).loc main_arg1) : S128x512x64.Idx → EReal)
    (fun i => (m ((c : Thread nD τ).loc main_arg3) : S8x16x512x512.Idx → EReal) (grouped i))
    (fun i => (m ((c : Thread nD τ).loc main_arg4) : S8x16x512x512.Idx → BitVec 1) (grouped i))
abbrev contextOf (c : Dev nD) : S128x512x64.Idx → EReal :=
  context (m ((c : Thread nD τ).loc main_arg0) : S128x512x64.Idx → EReal) (m ((c : Thread nD τ).loc main_arg1) : S128x512x64.Idx → EReal)
    (m ((c : Thread nD τ).loc main_arg2) : S128x512x64.Idx → EReal)
    (fun i => (m ((c : Thread nD τ).loc main_arg3) : S8x16x512x512.Idx → EReal) (grouped i))
    (fun i => (m ((c : Thread nD τ).loc main_arg4) : S8x16x512x512.Idx → BitVec 1) (grouped i))

/-- The bit the steps test is the argument's mask bit. -/
theorem keepFound_eq (c : Dev nD) :
    keepFound m c = fun i => (m ((c : Thread nD τ).loc main_arg4) : S8x16x512x512.Idx → BitVec 1) (grouped i) := by
  unfold keepFound
  rw [mask_found]
  funext i
  exact widened_ne_zero _

theorem weightsFound_eq (c : Dev nD) : weightsFound m c = weightsOf m c := by
  unfold weightsFound
  rw [keepFound_eq, bias_found, V_main_arg0, V_main_arg1]

theorem contextFound_eq (c : Dev nD) : contextFound m c = contextOf m c := by
  unfold contextFound
  rw [keepFound_eq, bias_found, V_main_arg0, V_main_arg1, V_main_arg2]

/-- The weights array after the run. -/
theorem final_weights (c : Dev nD) : (dats m 0 c).arrAt 6 cfg0.N = weightsOf m c :=
  ((dats m 0 c).arrAt_eq_of_cover 6 (weightsFound m c) (fun t _ => flushed_weights m c t) weights_covered).trans
    (weightsFound_eq m c)

/-- The context array after the run. -/
theorem final_context (c : Dev nD) : (dats m 0 c).arrAt 5 cfg0.N = contextOf m c :=
  ((dats m 0 c).arrAt_eq_of_cover 5 (contextFound m c) (fun t _ => flushed_context m c t) context_covered).trans
    (contextFound_eq m c)

/-! ## The run, read -/

/-- Every weakly fair execution of the kernel's program terminates with the context array at `contextOf`, the
    weights array at `weightsOf`, and the arguments unchanged. -/
theorem run : θ_run defs (onTc (τ := τ) (main (F := Ideal))) ⟨m, fun _ => 0, ρ⟩ fun r => ∀ c : Dev nD,
      r.2.mem ((c : Thread nD τ).loc main_v3_0) = contextOf m c
      ∧ r.2.mem ((c : Thread nD τ).loc main_v3_1) = weightsOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_context m c), (h c).2.1.trans (final_weights m c), (h c).2.2⟩)
    (Value.run_blocks m ρ)

end Cert.KernelIdeal.Heads

end
-- ==== Proof.lean ====
/-
  Scaled dot-product attention over 128 heads of 512 positions and 64 features, with an additive bias and a
  replacing mask: the kernel against its reference, on the extended reals.

  Both programs compute, for every head h, query row q and key column k, the score
      s = (∑_d Q(h,q,d) · K(h,k,d)) · (1/8) + bias   where the mask is set,   the fill value elsewhere,
  the weights w = softmax of row (h, q) of s taken against the row's maximum, and the context
  c(h,q,d) = ∑_k w(h,q,k) · V(h,k,d). The kernel does it two heads per grid step, with the bias flattened and the
  mask flattened and widened by the host first; the reference does it for all heads at once, regrouping the scores
  to meet the bias and the mask where they live. The specification (Proof/Attention.lean) states the two results
  as one function each of the argument arrays; Proof/RefAttention.lean shows the reference's two results are
  those functions, Proof/BlockAttention.lean and Proof/HeadBlocks.lean that the kernel's two result arrays end
  holding them. Nothing needs the inputs to be finite: the two sides are the same expression, up to the spelling
  of 1/8 (the reference writes 1 / √64), a maximum taken once more against its own seed -∞, the order of the
  sums, and the tiling.

  The three frame claims are the generated frame runs (the reference's its generated run with the results
  dropped); the idealization rewrote nothing, so the preservation claim is `True`.
-/
import proofs.«175101_j88132728914540_2_alg».proof.Defs
import proofs.«175101_j88132728914540_2_alg».proof.Proof.Gen.Kernel
import proofs.«175101_j88132728914540_2_alg».proof.Proof.Gen.Kernel.Skeleton
import proofs.«175101_j88132728914540_2_alg».proof.Proof.Gen.Kernel.Launch
import proofs.«175101_j88132728914540_2_alg».proof.Proof.Gen.Kernel.Points
import proofs.«175101_j88132728914540_2_alg».proof.Proof.Gen.Kernel.Frame
import proofs.«175101_j88132728914540_2_alg».proof.Proof.Gen.KernelIdeal
import proofs.«175101_j88132728914540_2_alg».proof.Proof.Gen.KernelIdeal.Skeleton
import proofs.«175101_j88132728914540_2_alg».proof.Proof.Gen.KernelIdeal.Launch
import proofs.«175101_j88132728914540_2_alg».proof.Proof.Gen.KernelIdeal.Points
import proofs.«175101_j88132728914540_2_alg».proof.Proof.Gen.KernelIdeal.Frame
import proofs.«175101_j88132728914540_2_alg».proof.Proof.Gen.ReferenceIdeal
import proofs.«175101_j88132728914540_2_alg».proof.Proof.Gen.Pre_finite_inputs
import proofs.«175101_j88132728914540_2_alg».proof.Proof.Gen.KernelIdeal.Value
import proofs.«175101_j88132728914540_2_alg».proof.Proof.Gen.ReferenceIdeal.Run
import proofs.«175101_j88132728914540_2_alg».proof.Proof.Gen.ReferenceIdeal.Read
import proofs.«175101_j88132728914540_2_alg».proof.Proof.Attention
import proofs.«175101_j88132728914540_2_alg».proof.Proof.RefAttention
import proofs.«175101_j88132728914540_2_alg».proof.Proof.HeadBlocks
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the context at `Attention.context` and the
    weights at `Attention.weights` of the arguments, the bias and the mask read through `Attention.grouped`. -/
theorem algebraic : Cert.algebraic_KernelIdeal_ReferenceIdeal := by
  intro m ρ m' ρ' _ hagree
  refine ⟨fun c => Cert.KernelIdeal.Heads.contextOf m c, fun c => Cert.KernelIdeal.Heads.weightsOf m c,
    Cert.KernelIdeal.Heads.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4⟩ := hagree c
    refine (Cert.ReferenceIdeal.Read.val_main_v20_eq (F := Ideal) _ _ _ _ _).trans
      ((Cert.ReferenceIdeal.RefValue.context_eq _ _ _ _ _).trans ?_)
    rw [a0, a1, a2, a3, a4]
  · obtain ⟨a0, a1, a2, a3, a4⟩ := hagree c
    refine (Cert.ReferenceIdeal.Read.val_main_v19_eq (F := Ideal) _ _ _ _).trans
      ((Cert.ReferenceIdeal.RefValue.weights_eq _ _ _ _).trans ?_)
    rw [a0, a1, a3, a4]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
